-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x3200000 : Shape := ⟨2, ![2, 3200000]⟩
abbrev S64x11 : Shape := ⟨2, ![64, 11]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S64x11 : S_.BroadcastsInDim S64x11 (![] : Fin 0 → Fin S64x11.rank)
  reducesTo_S64x11_S_d0_1 : S64x11.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x64 .f32) (main_arg9 : FVec F S1 .f32) (main_v13 : IVec S_ 1) (main_v16 : IVec S64x11 1) : IVec S_ 1 :=
  let main_c_5 : IVec S_ 1 := constantI S_ 1 1#1
  let main_v17 : IVec S_ 1 := (fun x v => Host.reduce IntOp.andi x v reducesTo_S64x11_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x11 .f32) (main_arg1 : IVec S2x3200000 32) (main_arg2 : FVec F S64x11 .f32) (main_arg3 : FVec F S64 .f32) (main_arg4 : FVec F S64x11 .f32) (main_arg5 : FVec F S64x64 .f32) (main_arg6 : FVec F S64 .f32) (main_arg7 : FVec F S64x64 .f32) (main_arg8 : FVec F S1x64 .f32) (main_arg9 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S64x11 .f32 := Host.absf main_arg2
  let main_cst_0 : FVec F S_ .f32 := constant S_ .f32 0x7F800000#32
  let main_v5 : FVec F S64x11 .f32 := broadcastInDim S64x11 ![] bcast_S_S64x11 main_cst_0
  let main_v6 : IVec S64x11 1 := cmpf .olt main_v4 main_v5
  let main_c_1 : IVec S_ 1 := constantI S_ 1 1#1
  let main_v7 : IVec S_ 1 := (fun x v => Host.reduce IntOp.andi x v reducesTo_S64x11_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x11 .f32 := Host.absf main_arg4
  let main_cst_4 : FVec F S_ .f32 := constant S_ .f32 0x7F800000#32
  let main_v15 : FVec F S64x11 .f32 := broadcastInDim S64x11 ![] bcast_S_S64x11 main_cst_4
  let main_v16 : IVec S64x11 1 := cmpf .olt main_v14 main_v15
  fn_part1 (F := F) main_arg5 main_arg6 main_arg7 main_arg8 main_arg9 main_v13 main_v16
-- ==== Kernel.lean ====
abbrev S100000x11 : Shape := ⟨2, ![100000, 11]⟩
abbrev S2x3200000 : Shape := ⟨2, ![2, 3200000]⟩
abbrev S64x11 : Shape := ⟨2, ![64, 11]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x11 : Shape := ⟨2, ![3200000, 11]⟩
abbrev S11x64 : Shape := ⟨2, ![11, 64]⟩
abbrev S100000x64 : Shape := ⟨2, ![100000, 64]⟩
abbrev S5000x11 : Shape := ⟨2, ![5000, 11]⟩
abbrev S5000x1 : Shape := ⟨2, ![5000, 1]⟩
abbrev S5000x64 : Shape := ⟨2, ![5000, 64]⟩
abbrev S3200000x64 : Shape := ⟨2, ![3200000, 64]⟩
abbrev S64x1 : Shape := ⟨2, ![64, 1]⟩
abbrev S1x1 : Shape := ⟨2, ![1, 1]⟩

abbrev nBuf : Space → Nat
  | .hbm => 61
  | .vmem => 24
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S64x11, .f32⟩
  | .hbm, ⟨3, _⟩ => ⟨S64, .f32⟩
  | .hbm, ⟨4, _⟩ => ⟨S64x11, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x11, .f32⟩
  | .hbm, ⟨36, _⟩ => ⟨S_, .f32⟩
  | .hbm, ⟨37, _⟩ => ⟨S100000x11, .f32⟩
  | .hbm, ⟨38, _⟩ => ⟨S3200000x1, .i32⟩
  | .hbm, ⟨39, _⟩ => ⟨S100000x11, .f32⟩
  | .hbm, ⟨40, _⟩ => ⟨S11x64, .f32⟩
  | .hbm, ⟨41, _⟩ => ⟨S11x64, .f32⟩
  | .hbm, ⟨42, _⟩ => ⟨S100000x64, .bf16⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x64, .bf16⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S64x64, .f32⟩
  | .hbm, ⟨58, _⟩ => ⟨S64x64, .f32⟩
  | .hbm, ⟨59, _⟩ => ⟨S64x1, .f32⟩
  | .hbm, ⟨60, _⟩ => ⟨S100000x1, .f32⟩
  | .local _ .vmem, ⟨0, _⟩ => ⟨S5000x11, .f32⟩
  | .local _ .vmem, ⟨1, _⟩ => ⟨S5000x11, .f32⟩
  | .local _ .vmem, ⟨2, _⟩ => ⟨S5000x11, .f32⟩
  | .local _ .vmem, ⟨3, _⟩ => ⟨S5000x11, .f32⟩
  | .local _ .vmem, ⟨4, _⟩ => ⟨S5000x1, .f32⟩
  | .local _ .vmem, ⟨5, _⟩ => ⟨S5000x1, .f32⟩
  | .local _ .vmem, ⟨6, _⟩ => ⟨S11x64, .f32⟩
  | .local _ .vmem, ⟨7, _⟩ => ⟨S64, .f32⟩
  | .local _ .vmem, ⟨8, _⟩ => ⟨S11x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S5000x64, .bf16⟩
  | .local _ .vmem, ⟨14, _⟩ => ⟨S5000x64, .bf16⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S64x1, .f32⟩
  | .local _ .vmem, ⟨21, _⟩ => ⟨S1, .f32⟩
  | .local _ .vmem, ⟨22, _⟩ => ⟨S5000x1, .f32⟩
  | .local _ .vmem, ⟨23, _⟩ => ⟨S5000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S11x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S11x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  bcast_S_S100000x11 : S_.BroadcastsInDim S100000x11 (![] : Fin 0 → Fin S100000x11.rank)
  transposes_S64x11_S11x64_1_0 : S64x11.Transposes [1, 0] S11x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x11_S5000x11_0_0 : ∀ a, (![0, 0] : Fin 2 → Nat) a + S5000x11.size a ≤ S5000x11.size a
  h_S5000x11 : 0 < S5000x11.numel
  shapeCasts_S5000x11_S5000x11 : S5000x11.ShapeCasts S5000x11
  broadcasts_S5000x1_S5000x11 : S5000x1.Broadcasts S5000x11
  bitsLt_bf16_f32 : FTy.bits .bf16 < FTy.bits .f32
  inb_S11x64_S11x64_0_0 : ∀ a, (![0, 0] : Fin 2 → Nat) a + S11x64.size a ≤ S11x64.size a
  h_S11x64 : 0 < S11x64.numel
  shapeCasts_S11x64_S11x64 : S11x64.ShapeCasts S11x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  transposes_S64x64_S64x64_1_0 : S64x64.Transposes [1, 0] S64x64
  transposes_S1x64_S64x1_1_0 : S1x64.Transposes [1, 0] S64x1
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S3200000x1_S3200000_n_0_0_1_wf : ScatterDims.WF S100000 S3200000x1 S3200000 [] [0] [0] 1
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  dot_S5000x11_S11x64_S5000x64_1_0_0_1_n_n_wf : DotDims.WF S5000x11 S11x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x11.size a ≤ S100000x11.size a
  hwx0_1 : ∀ i : grid0.Coords, EltTy.bits .f32 = 32 ∨ (Rect.block (s := S100000x11) S5000x11.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x64.size a ≤ S11x64.size a
  hwx0_3 : ∀ i : grid0.Coords, EltTy.bits .f32 = 32 ∨ (Rect.block (s := S11x64) S11x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S11x64.size a ≤ S11x64.size a
  hwx0_5 : ∀ i : grid0.Coords, EltTy.bits .f32 = 32 ∨ (Rect.block (s := S11x64) S11x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .bf16 = 32 ∨ (Rect.block (s := S100000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S64x1.size a
  hwx1_6 : ∀ i : grid1.Coords, EltTy.bits .f32 = 32 ∨ (Rect.block (s := S64x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1.size a ≤ S1.size a
  hwx1_7 : ∀ i : grid1.Coords, EltTy.bits .f32 = 32 ∨ (Rect.block (s := S1) S1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def dot_S5000x11_S11x64_S5000x64_1_0_0_1_n_n : DotDims S5000x11 S11x64 S5000x64 where
  lhsContracting := [1]
  rhsContracting := [0]
  lhsNonContracting := [0]
  rhsNonContracting := [1]
  lhsBatch := []
  rhsBatch := []
  wf := dot_S5000x11_S11x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S11x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S11x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S64x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x11 : Shape := ⟨2, ![100000, 11]⟩
abbrev S2x3200000 : Shape := ⟨2, ![2, 3200000]⟩
abbrev S64x11 : Shape := ⟨2, ![64, 11]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x11 : Shape := ⟨2, ![3200000, 11]⟩
abbrev S100000 : Shape := ⟨1, ![100000]⟩
abbrev S100000x1 : Shape := ⟨2, ![100000, 1]⟩
abbrev S11x64 : Shape := ⟨2, ![11, 64]⟩
abbrev S100000x64 : Shape := ⟨2, ![100000, 64]⟩
abbrev S3200000x64 : Shape := ⟨2, ![3200000, 64]⟩
abbrev S64x1 : Shape := ⟨2, ![64, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S100000x11, .f32⟩
  | .hbm, ⟨1, _⟩ => ⟨S2x3200000, .i32⟩
  | .hbm, ⟨2, _⟩ => ⟨S64x11, .f32⟩
  | .hbm, ⟨3, _⟩ => ⟨S64, .f32⟩
  | .hbm, ⟨4, _⟩ => ⟨S64x11, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x11, .f32⟩
  | .hbm, ⟨23, _⟩ => ⟨S_, .f32⟩
  | .hbm, ⟨24, _⟩ => ⟨S100000x11, .f32⟩
  | .hbm, ⟨25, _⟩ => ⟨S3200000x1, .i32⟩
  | .hbm, ⟨26, _⟩ => ⟨S100000x11, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x11, .f32⟩
  | .hbm, ⟨38, _⟩ => ⟨S100000x11, .f32⟩
  | .hbm, ⟨39, _⟩ => ⟨S11x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S11x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x64, .f32⟩
  | .hbm, ⟨59, _⟩ => ⟨S_, .f32⟩
  | .hbm, ⟨60, _⟩ => ⟨S100000x64, .f32⟩
  | .hbm, ⟨61, _⟩ => ⟨S3200000x1, .i32⟩
  | .hbm, ⟨62, _⟩ => ⟨S100000x64, .f32⟩
  | .hbm, ⟨63, _⟩ => ⟨S_, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x1, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x11 : S_.BroadcastsInDim S100000x11 (![] : Fin 0 → Fin S100000x11.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x11_0_1 : S100000x1.BroadcastsInDim S100000x11 (![0, 1] : Fin 2 → Fin S100000x11.rank)
  transposes_S64x11_S11x64_1_0 : S64x11.Transposes [1, 0] S11x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  scatter_S100000_S3200000x1_S3200000_n_0_0_1_wf : ScatterDims.WF S100000 S3200000x1 S3200000 [] [0] [0] 1
  dot_S100000x11_S11x64_S100000x64_1_0_0_1_n_n_wf : DotDims.WF S100000x11 S11x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x11_S11x64_S100000x64_1_0_0_1_n_n : DotDims S100000x11 S11x64 S100000x64 where
  lhsContracting := [1]
  rhsContracting := [0]
  lhsNonContracting := [0]
  rhsNonContracting := [1]
  lhsBatch := []
  rhsBatch := []
  wf := dot_S100000x11_S11x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.WholeRun.lean ====
/-
  The whole run of the two-layer program, with its result named.

  The program is four stretches in a row: host operations, the first layer's pipeline, host operations again, the
  second layer's pipeline.  Every weakly fair execution goes through them in order, and at the end every buffer the
  host can see holds what the last stretch left in it.  The theorem below reads that final content at the result
  buffer as well as at the ten arguments: the result is whatever the second pipeline's write-backs left in its
  output array, and the arguments are as launched.
-/
import proofs.«107072_j6554120093875_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at what the second pipeline's
    write-backs leave in its output array, and every argument ends as launched. -/
theorem run_result : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Whole

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibColumnLayout.lean ====
/-
  Three re-layings of a matrix's rows and columns read at an index `(p, c)`, for any extents `a`, `b`, over any element
  type (the sum over the extended reals):
  * a column `[a, 1]` repeated along `b` lanes reads, at `(p, c)`, the column's entry `(p, 0)`;
  * a vector `[a]` cast to a column `[a, 1]` reads, at `(p, 0)`, the vector's entry `p`;
  * the sum of a matrix `[a, b]` along its lanes reads, at row `p`, the sum over `c` of the entries `(p, c)`.
  Together they read a "sum over the lanes, keep the axis" at a row. They complete the library's forms for a row
  `[1, b]` repeated down `a` rows and a vector `[a]` cast to a row `[1, a]`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ColumnLayout

open Idealize.ShloMosaic Idealize.ShloMosaic.ValueIdx

variable {α : Type}

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum of a matrix `[a, b]` along its second axis, started from the additive neutral word, read at row `p` over the
    extended reals: the sum over the lanes `c` of the entries `(p, c)`. -/
theorem laneSum_apply {a b : ℕ} (src : FVec Ideal ⟨2, ![a, b]⟩ .f32) (acc : BitVec FTy.f32.bits)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => congrArg src (funext fun d => Fin.ext ?_)
  match d with
  | ⟨0, _⟩ => rfl
  | ⟨1, _⟩ => rfl

end Cert.ColumnLayout

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.LibAffineBodies.lean ====
/-
  The arithmetic of the five kinds of kernel body, over the extended reals.

  Every body works on a tile of rows.  A "linear" body multiplies the tile `x` ([M, K]) by a weight matrix `w`
  ([K, N]) and adds a row vector `b` ([1, N]) to every row: entry (p, q) is `∑ k, x (p, k) * w (k, q) + b (0, q)`
  (the narrowing of both operands before the product is the identity on extended reals).  It may then clamp at
  zero from below, or apply the logistic function.  A "bias" body adds the row vector to every row of the tile
  and clamps at zero.  Each lemma below says that the body's chain of vector operations is that entrywise
  function.
-/
import Idealize.ShloMosaic.PureOps.Ideal.Laws
import Idealize.ShloMosaic.Lib.ValueIdx
import Idealize.ShloMosaic.Lib.ValueLayout
import Idealize.ShloMosaic.Lib.Pipeline.Value
import proofs.«107072_j6554120093875_2_alg».proof.Proof.LibMatmul

noncomputable section

open scoped BigOperators
open Idealize.ShloMosaic Idealize.ShloMosaic.ValueIdx

namespace Gcn

variable {M K N : ℕ}

/-- Matrices of extended reals, indexed by the shape's multi-indices. -/
abbrev Mat (M N : ℕ) : Type := (⟨2, ![M, N]⟩ : Shape).Idx → EReal

/-- `x · w + b`, the row vector `b` added to every row. -/
def affine (x : Mat M K) (w : Mat K N) (b : Mat 1 N) : Mat M N :=
  fun i => (∑ k : Fin K, x (ix2 (i 0) k) * w (ix2 k (i 1))) + b (ix2 0 (i 1))

/-- `max (a + b) 0`, the row vector `b` added to every row. -/
def biasRelu (a : Mat M N) (b : Mat 1 N) : Mat M N :=
  fun i => max (a i + b (ix2 0 (i 1))) 0

/-- `max (x · w + b) 0`. -/
def affineRelu (x : Mat M K) (w : Mat K N) (b : Mat 1 N) : Mat M N :=
  fun i => max (affine x w b i) 0

/-- The logistic function of `x · w + b`. -/
def affineLogistic (x : Mat M K) (w : Mat K N) (b : Mat 1 N) : Mat M N :=
  fun i => Ideal.logistic (affine x w b i)

/-- A row vector broadcast down the rows, read at an entry. -/
theorem rowBroadcast_apply (b : FVec Ideal (⟨2, ![1, N]⟩ : Shape) .f32)
    (hb : (⟨2, ![1, N]⟩ : Shape).Broadcasts (⟨2, ![M, N]⟩ : Shape)) (p : Fin M) (q : Fin N) :
    broadcastTo (⟨2, ![M, N]⟩ : Shape) b hb (ix2 p q) = b (ix2 0 q) := by
  refine broadcastTo_apply b hb (ix2 p q) (ix2 0 q) fun a => ?_
  match a with
  | ⟨0, _⟩ => exact (if_pos rfl).symm
  | ⟨1, _⟩ =>
    show q.val = if N = 1 then 0 else q.val
    split
    · have := q.isLt; omega
    · rfl

/-- The clamp at zero, read at an entry. -/
theorem clamp_apply (a : FVec Ideal (⟨2, ![M, N]⟩ : Shape) .f32) (i : (⟨2, ![M, N]⟩ : Shape).Idx) :
    maximumf a (broadcast (⟨2, ![M, N]⟩ : Shape) (Scalar.ofBits (F := Ideal) .f32 0x00000000#32)) i = max (a i) 0 := by
  rw [maximumf_apply, broadcast_apply]
  show max _ (Ideal.ofBits .f32 0x00000000#32) = _
  rw [Ideal.ofBits_zero_f32]

/-- The linear body: product into the zero matrix, then the row vector added. -/
theorem linear_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    addf (matmul d none (truncf .bf16 x h1) (truncf .bf16 w h2) (constant (⟨2, ![M, N]⟩ : Shape) .f32 0x00000000#32))
        (broadcastTo (⟨2, ![M, N]⟩ : Shape) b hb)
      = affine x w b := by
  funext i
  obtain ⟨p, q, rfl⟩ : ∃ (p : Fin M) (q : Fin N), i = ix2 p q := ⟨i 0, i 1, eq_ix2 i⟩
  rw [addf_apply, rowBroadcast_apply]
  refine congrArg (· + b (ix2 0 q)) ?_
  exact PlainMatmul.apply hd none (truncf .bf16 x h1) (truncf .bf16 w h2) p q

/-- The linear body followed by the clamp at zero. -/
theorem linear_relu_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    maximumf (addf (matmul d none (truncf .bf16 x h1) (truncf .bf16 w h2) (constant (⟨2, ![M, N]⟩ : Shape) .f32 0x00000000#32))
        (broadcastTo (⟨2, ![M, N]⟩ : Shape) b hb))
        (broadcast (⟨2, ![M, N]⟩ : Shape) (Scalar.ofBits (F := Ideal) .f32 0x00000000#32))
      = affineRelu x w b := by
  rw [linear_body hd x w b h1 h2 hb]
  funext i
  exact clamp_apply _ i

/-- The linear body followed by the logistic function. -/
theorem linear_logistic_body {d : DotDims (⟨2, ![M, K]⟩ : Shape) (⟨2, ![K, N]⟩ : Shape) (⟨2, ![M, N]⟩ : Shape)}
    (hd : PlainMatmul.IsPlain d)
    (x : FVec Ideal (⟨2, ![M, K]⟩ : Shape) .f32) (w : FVec Ideal (⟨2, ![K, N]⟩ : Shape) .f32)
    (b : FVec Ideal (⟨2, ![1, N]⟩ : Shape) .f32)
    (h1 h2 : FTy.bf16.bits < FTy.f32.bits)
    (hb : (⟨2, ![1, N]⟩ : Shape).Broadcasts (⟨2, ![M, N]⟩ : Shape)) :
    logistic (addf (matmul d none (truncf .bf16 x h1) (truncf .bf16 w h2) (constant (⟨2, ![M, N]⟩ : Shape) .f32 0x00000000#32))
        (broadcastTo (⟨2, ![M, N]⟩ : Shape) b hb))
      = affineLogistic x w b := by
  rw [linear_body hd x w b h1 h2 hb]
  rfl

/-- The bias body: the row vector added, then the clamp at zero. -/
theorem bias_body (a : FVec Ideal (⟨2, ![M, N]⟩ : Shape) .f32) (b : FVec Ideal (⟨2, ![1, N]⟩ : Shape) .f32)
    (hb : (⟨2, ![1, N]⟩ : Shape).Broadcasts (⟨2, ![M, N]⟩ : Shape)) :
    maximumf (addf a (broadcastTo (⟨2, ![M, N]⟩ : Shape) b hb))
        (broadcast (⟨2, ![M, N]⟩ : Shape) (Scalar.ofBits (F := Ideal) .f32 0x00000000#32))
      = biasRelu a b := by
  funext i
  obtain ⟨p, q, rfl⟩ : ∃ (p : Fin M) (q : Fin N), i = ix2 p q := ⟨i 0, i 1, eq_ix2 i⟩
  rw [clamp_apply, addf_apply, rowBroadcast_apply]
  rfl

/-! ## Two entries agree when the rows they depend on agree -/

theorem affine_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affine X W B j = affine A W' B' i := by
  subst hW hB
  have e : (j 1 : Fin N) = i 1 := Fin.ext h1
  show (∑ k : Fin K, X (ix2 (j 0) k) * W (ix2 k (j 1))) + B (ix2 0 (j 1))
    = (∑ k : Fin K, A (ix2 (i 0) k) * W (ix2 k (i 1))) + B (ix2 0 (i 1))
  rw [e]
  exact congrArg (· + B (ix2 0 (i 1))) (Finset.sum_congr rfl fun k _ => by rw [hX k])

theorem affineRelu_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineRelu X W B j = affineRelu A W' B' i := by
  unfold affineRelu
  rw [affine_congr j i hW hB hX h1]

theorem affineLogistic_congr {M' : ℕ} {X : Mat M K} {W W' : Mat K N} {B B' : Mat 1 N} {A : Mat M' K}
    (j : (⟨2, ![M, N]⟩ : Shape).Idx) (i : (⟨2, ![M', N]⟩ : Shape).Idx)
    (hW : W = W') (hB : B = B') (hX : ∀ k : Fin K, X (ix2 (j 0) k) = A (ix2 (i 0) k)) (h1 : (j 1).val = (i 1).val) :
    affineLogistic X W B j = affineLogistic A W' B' i := by
  unfold affineLogistic
  rw [affine_congr j i hW hB hX h1]

theorem biasRelu_congr {M' : ℕ} {X : Mat M N} {B B' : Mat 1 N} {A : Mat M' N}
    (j : (⟨2, ![M, N]⟩ : Shape).Idx) (i : (⟨2, ![M', N]⟩ : Shape).Idx)
    (hB : B = B') (hX : X j = A i) (h1 : (j 1).val = (i 1).val) :
    biasRelu X B j = biasRelu A B' i := by
  subst hB
  have e : (j 1 : Fin N) = i 1 := Fin.ext h1
  show max (X j + B (ix2 0 (j 1))) 0 = max (A i + B (ix2 0 (i 1))) 0
  rw [e, hX]

end Gcn

end
-- ==== Proof.Bodies.lean ====
/-
  What one tile of each layer's kernel computes, entry by entry, over the extended reals.

  A tile is 5000 consecutive nodes.  The first kernel takes the tile's aggregated neighbour features `a` ([5000, 11]),
  its own features `x` ([5000, 11]), the reciprocal clamped in-degree `inv` as a column ([5000, 1]), two weight
  matrices ([11, 64]) and a bias ([64]); entry (p, q) of its output is
    max ( ∑ k, (a (p, k) * inv (p, 0)) * wl (k, q)  +  ∑ k, x (p, k) * wr (k, q)  +  b q ) 0.
  Narrowing to half precision and back is the identity on extended reals, and a matrix product into the zero matrix
  is the plain sum over the contracted axis.  The second kernel computes the same thing over 64 input features and
  then contracts the 64 hidden features with a weight column ([64, 1]) and adds a scalar bias.
-/
import proofs.«107072_j6554120093875_2_alg».proof.Proof.Gen.KernelIdeal.Skeleton
import proofs.«107072_j6554120093875_2_alg».proof.Proof.LibMatmul
import proofs.«107072_j6554120093875_2_alg».proof.Proof.LibColumnLayout
import proofs.«107072_j6554120093875_2_alg».proof.Proof.LibLayout
import proofs.«107072_j6554120093875_2_alg».proof.Proof.LibAffineBodies

noncomputable section

open scoped BigOperators
open Idealize.ShloMosaic Idealize.ShloMosaic.ValueIdx

namespace Cert.KernelIdeal.Bodies

open Cert.KernelIdeal Cert.KernelIdeal.Gen

theorem plain_11_64 : PlainMatmul.IsPlain dot_S5000x11_S11x64_S5000x64_1_0_0_1_n_n := ⟨rfl, rfl, rfl, rfl, rfl, rfl⟩
theorem plain_64_64 : PlainMatmul.IsPlain dot_S5000x64_S64x64_S5000x64_1_0_0_1_n_n := ⟨rfl, rfl, rfl, rfl, rfl, rfl⟩
theorem plain_64_1 : PlainMatmul.IsPlain dot_S5000x64_S64x1_S5000x1_1_0_0_1_n_n := ⟨rfl, rfl, rfl, rfl, rfl, rfl⟩

/-- The first layer's tile, at row `p` and hidden feature `q`. -/
theorem layer1_entry (inv : Vec Ideal S5000x1 .f32) (a x : Vec Ideal S5000x11 .f32) (wl wr : Vec Ideal S11x64 .f32)
    (b : Vec Ideal S64 .f32) (p : Fin 5000) (q : Fin 64) :
    k0_pay1 (F := Ideal) inv a x wl wr b (ix2 p q)
      = max ((∑ k : Fin 11, (a (ix2 p k) * inv (ix2 p (0 : Fin 1))) * wl (ix2 k q))
            + (∑ k : Fin 11, x (ix2 p k) * wr (ix2 k q)) + b (ix1 q)) 0 := by
  unfold k0_pay1
  rw [truncf_apply, Gcn.clamp_apply, addf_apply, addf_apply, Gcn.rowBroadcast_apply, RowOfFlat.apply]
  refine congrArg (fun z => max z 0) (congrArg₂ (· + ·) (congrArg₂ (· + ·) ?_ ?_) rfl)
  · refine (PlainMatmul.apply plain_11_64 none _ _ p q).trans ?_
    simp only [truncf_apply, mulf_apply, shapeCast_self, Cert.ColumnLayout.broadcastTo_a1_ab_apply]
  · refine (PlainMatmul.apply plain_11_64 none _ _ p q).trans ?_
    simp only [truncf_apply, shapeCast_self]

/-- The second layer's tile followed by the output layer, at row `p` (the output has one column). -/
theorem layer2_entry (inv : Vec Ideal S5000x1 .f32) (a : Vec Ideal S5000x64 .f32) (h : Vec Ideal S5000x64 .bf16)
    (wl wr : Vec Ideal S64x64 .f32) (b : Vec Ideal S64 .f32) (wo : Vec Ideal S64x1 .f32) (bo : Vec Ideal S1 .f32)
    (p : Fin 5000) (u : Fin 1) :
    k1_pay1 (F := Ideal) inv a h wl wr b wo bo (ix2 p u)
      = (∑ j : Fin 64,
          max ((∑ k : Fin 64, ((a (ix2 p k) : EReal) * (inv (ix2 p (0 : Fin 1)) : EReal)) * (wl (ix2 k j) : EReal))
              + (∑ k : Fin 64, (h (ix2 p k) : EReal) * (wr (ix2 k j) : EReal)) + (b (ix1 j) : EReal)) 0
            * (wo (ix2 j u) : EReal))
        + (bo (ix1 u) : EReal) := by
  unfold k1_pay1
  rw [addf_apply, Gcn.rowBroadcast_apply, RowOfFlat.apply]
  refine congrArg (· + (bo (ix1 u) : EReal)) ?_
  refine (PlainMatmul.apply plain_64_1 none _ _ p u).trans ?_
  refine Finset.sum_congr rfl fun j _ => ?_
  refine congrArg₂ (· * ·) ?_ ?_
  · rw [truncf_apply, Gcn.clamp_apply, addf_apply, addf_apply, Gcn.rowBroadcast_apply, RowOfFlat.apply]
    refine congrArg (fun z => max z 0) (congrArg₂ (· + ·) (congrArg₂ (· + ·) ?_ ?_) rfl)
    · refine (PlainMatmul.apply plain_64_64 none _ _ p j).trans ?_
      simp only [truncf_apply, mulf_apply, shapeCast_self, Cert.ColumnLayout.broadcastTo_a1_ab_apply]
    · refine (PlainMatmul.apply plain_64_64 none _ _ p j).trans ?_
      simp only [truncf_apply, shapeCast_self]
  · simp only [truncf_apply, shapeCast_self]

end Cert.KernelIdeal.Bodies

end
-- ==== Proof.Layer1Array.lean ====
/-
  The first layer's output array, as one function of the arrays its pipeline reads.

  The pipeline walks the 100000 nodes in 20 tiles of 5000 consecutive rows.  At tile `t` the three row-tiled operands
  (aggregated neighbour features, the nodes' own features, the reciprocal clamped in-degree) are rows
  `5000 t … 5000 t + 4999` of their arrays, the two weight matrices and the bias are whole, and the tile's output goes to
  the same rows of the output array.  So row `5000 t + p` of the output depends only on row `5000 t + p` of the three
  row-tiled operands, and since the 20 tiles cover every row, the whole output array is the row-by-row function
  `rows` below.
-/
import proofs.«107072_j6554120093875_2_alg».proof.Proof.Gen.KernelIdeal.Frame
import proofs.«107072_j6554120093875_2_alg».proof.Proof.Bodies
import Idealize.ShloMosaic.Lib.Pipeline.Value
import Idealize.ShloMosaic.Lib.ValueIdx

set_option maxRecDepth 16384

noncomputable section

open scoped BigOperators

namespace Cert.KernelIdeal.Layer1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Entry (P, q) of the layer: the clamp at zero of the neighbour part (each aggregated feature times the node's
    reciprocal degree, contracted with the first weight matrix), plus the root part, plus the bias. -/
def rows (A X : S100000x11.Idx → Elt Ideal .f32) (I : S100000x1.Idx → Elt Ideal .f32)
    (WL WR : S11x64.Idx → Elt Ideal .f32) (B : S64.Idx → Elt Ideal .f32) : S100000x64.Idx → Elt Ideal .bf16 :=
  fun i => max ((∑ k : Fin 11, ((A (ix2 (i 0 : Fin 100000) k) : EReal) * (I (ix2 (i 0 : Fin 100000) (0 : Fin 1)) : EReal)) * (WL (ix2 k (i 1 : Fin 64)) : EReal))
      + (∑ k : Fin 11, (X (ix2 (i 0 : Fin 100000) k) : EReal) * (WR (ix2 k (i 1 : Fin 64)) : EReal)) + (B (ix1 (i 1 : Fin 64)) : EReal)) 0

/-- The block index of every window at every tile: the row-tiled windows and the output sit at tile `t`, the whole
    operands at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of tile `t` is row `5000 t + p` of the array. -/
def row (t : Fin cfg0.N) (p : Fin 5000) : Fin 100000 :=
  ⟨t.val * 5000 + p.val, by have h1 : t.val < 20 := t.isLt; have h2 := p.isLt; omega⟩

theorem blk_0 (c : Dev nD) (t : Fin cfg0.N) (p : Fin 5000) (k : Fin 11) :
    iblk0 V c 0 t (ix2 p k) = V c main_v22 (ix2 (row t p) k) := by
  show V c main_v22 (((cfg0.win 0).blk t).view.emb (ix2 p k)) = _
  refine congrArg (V c main_v22) (funext fun a => Fin.ext ?_)
  obtain ⟨e00, e01, e10, e11, e20, e21, e30, e31, e40, e50, e51, e60, e61⟩ := idx_facts t
  match a with
  | ⟨0, _⟩ => show win0_0.index t (0 : Fin 2) * 5000 + 1 * p.val = t.val * 5000 + p.val; omega
  | ⟨1, _⟩ => show win0_0.index t (1 : Fin 2) * 11 + 1 * k.val = k.val; omega

theorem blk_1 (c : Dev nD) (t : Fin cfg0.N) (p : Fin 5000) (k : Fin 11) :
    iblk0 V c 1 t (ix2 p k) = V c main_arg0 (ix2 (row t p) k) := by
  show V c main_arg0 (((cfg0.win 1).blk t).view.emb (ix2 p k)) = _
  refine congrArg (V c main_arg0) (funext fun a => Fin.ext ?_)
  obtain ⟨e00, e01, e10, e11, e20, e21, e30, e31, e40, e50, e51, e60, e61⟩ := idx_facts t
  match a with
  | ⟨0, _⟩ => show win0_1.index t (0 : Fin 2) * 5000 + 1 * p.val = t.val * 5000 + p.val; omega
  | ⟨1, _⟩ => show win0_1.index t (1 : Fin 2) * 11 + 1 * k.val = k.val; omega

theorem blk_2 (c : Dev nD) (t : Fin cfg0.N) (p : Fin 5000) (u : Fin 1) :
    iblk0 V c 2 t (ix2 p u) = V c main_v12 (ix2 (row t p) u) := by
  show V c main_v12 (((cfg0.win 2).blk t).view.emb (ix2 p u)) = _
  refine congrArg (V c main_v12) (funext fun a => Fin.ext ?_)
  obtain ⟨e00, e01, e10, e11, e20, e21, e30, e31, e40, e50, e51, e60, e61⟩ := idx_facts t
  match a with
  | ⟨0, _⟩ => show win0_2.index t (0 : Fin 2) * 5000 + 1 * p.val = t.val * 5000 + p.val; omega
  | ⟨1, _⟩ => show win0_2.index t (1 : Fin 2) * 1 + 1 * u.val = u.val; omega

theorem blk_3 (c : Dev nD) (t : Fin cfg0.N) (k : Fin 11) (q : Fin 64) :
    iblk0 V c 3 t (ix2 k q) = V c main_v23 (ix2 k q) := by
  show V c main_v23 (((cfg0.win 3).blk t).view.emb (ix2 k q)) = _
  refine congrArg (V c main_v23) (funext fun a => Fin.ext ?_)
  obtain ⟨e00, e01, e10, e11, e20, e21, e30, e31, e40, e50, e51, e60, e61⟩ := idx_facts t
  match a with
  | ⟨0, _⟩ => show win0_3.index t (0 : Fin 2) * 11 + 1 * k.val = k.val; omega
  | ⟨1, _⟩ => show win0_3.index t (1 : Fin 2) * 64 + 1 * q.val = q.val; omega

theorem blk_4 (c : Dev nD) (t : Fin cfg0.N) (q : Fin 64) :
    iblk0 V c 4 t (ix1 q) = V c main_arg3 (ix1 q) := by
  show V c main_arg3 (((cfg0.win 4).blk t).view.emb (ix1 q)) = _
  refine congrArg (V c main_arg3) (funext fun a => Fin.ext ?_)
  obtain ⟨e00, e01, e10, e11, e20, e21, e30, e31, e40, e50, e51, e60, e61⟩ := idx_facts t
  match a with
  | ⟨0, _⟩ => show win0_4.index t (0 : Fin 1) * 64 + 1 * q.val = q.val; omega

theorem blk_5 (c : Dev nD) (t : Fin cfg0.N) (k : Fin 11) (q : Fin 64) :
    iblk0 V c 5 t (ix2 k q) = V c main_v24 (ix2 k q) := by
  show V c main_v24 (((cfg0.win 5).blk t).view.emb (ix2 k q)) = _
  refine congrArg (V c main_v24) (funext fun a => Fin.ext ?_)
  obtain ⟨e00, e01, e10, e11, e20, e21, e30, e31, e40, e50, e51, e60, e61⟩ := idx_facts t
  match a with
  | ⟨0, _⟩ => show win0_5.index t (0 : Fin 2) * 11 + 1 * k.val = k.val; omega
  | ⟨1, _⟩ => show win0_5.index t (1 : Fin 2) * 64 + 1 * q.val = q.val; omega

/-- Entry (p, q) of tile `t`'s output block is entry (5000 t + p, q) of the output array. -/
theorem emb_out (t : Fin cfg0.N) (p : Fin 5000) (q : Fin 64) :
    ((cfg0.win 6).blk t).view.emb (ix2 p q) = ix2 (row t p) q := by
  funext a
  apply Fin.ext
  obtain ⟨e00, e01, e10, e11, e20, e21, e30, e31, e40, e50, e51, e60, e61⟩ := idx_facts t
  match a with
  | ⟨0, _⟩ => show win0_6.index t (0 : Fin 2) * 5000 + 1 * p.val = t.val * 5000 + p.val; omega
  | ⟨1, _⟩ => show win0_6.index t (1 : Fin 2) * 64 + 1 * q.val = q.val; omega

/-- What tile `t` writes back is block `t` of `rows` of the arrays as the pipeline finds them. -/
theorem flushed_eq (c : Dev nD) (t : Fin cfg0.N) :
    (dat0 V c).flushed 6 t = ((cfg0.win 6).blk t).view.read (Elt Ideal)
      (rows (V c main_v22) (V c main_arg0) (V c main_v12) (V c main_v23) (V c main_v24) (V c main_arg3)) := by
  show (cfg0.win 6).cut (grid0.coords t) ((dat0 V c).after 6 t) = _
  rw [after0_6]
  unfold out0_6
  rw [View.canon_unit_zero hz2]
  simp only [View.ld_unit_zero (S := S5000x1) hz2, View.ld_unit_zero (S := S5000x11) hz2,
    View.ld_unit_zero (S := S11x64) hz2, View.ld_unit_zero (S := S64) hz1]
  funext j
  obtain ⟨p, q, rfl⟩ : ∃ (p : Fin 5000) (q : Fin 64), j = ix2 p q := ⟨j 0, j 1, eq_ix2 j⟩
  show k0_pay1 (iblk0 V c 2 t) (iblk0 V c 0 t) (iblk0 V c 1 t) (iblk0 V c 3 t) (iblk0 V c 5 t) (iblk0 V c 4 t) (ix2 p q)
    = rows (V c main_v22) (V c main_arg0) (V c main_v12) (V c main_v23) (V c main_v24) (V c main_arg3)
        (((cfg0.win 6).blk t).view.emb (ix2 p q))
  rw [emb_out]
  refine (Bodies.layer1_entry _ _ _ _ _ _ p q).trans ?_
  simp only [blk_0, blk_1, blk_2, blk_3, blk_4, blk_5]
  rfl

/-- An index of the output array is in tile `t`'s block iff each coordinate is in the block's range. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v25).slice (win0_6.rect t)).set ↔ _
  rw [View.set_slice_whole, Rect.mem_set_unit]
  exact Iff.rfl

/-- Every block of rows is some tile's. -/
theorem idx_onto : ∀ q0 : Fin 20, ∃ t : Fin cfg0.N, win0_6.index t = ![q0.val, 0] :=
  (by decide +kernel : ∀ q0 : Fin 20, ∃ t : Fin grid0.N, win0_6.index t = ![q0.val, 0])

/-- The tiles cover the output array: row `r` is in tile `r / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- The output array after the pipeline. -/
theorem final (c : Dev nD) :
    (dat0 V c).arrAt 6 cfg0.N
      = rows (V c main_v22) (V c main_arg0) (V c main_v12) (V c main_v23) (V c main_v24) (V c main_arg3) :=
  (dat0 V c).arrAt_eq_of_cover 6 _ (fun t _ => flushed_eq V c t) cover

end Cert.KernelIdeal.Layer1

end
-- ==== Proof.Layer2Array.lean ====
/-
  The program's result array, as one function of the arrays the second pipeline reads.

  The second pipeline walks the 100000 nodes in the same 20 tiles of 5000 consecutive rows.  At tile `t` the aggregated
  hidden features, the hidden features themselves and the reciprocal clamped in-degree are rows
  `5000 t … 5000 t + 4999` of their arrays; the two 64 x 64 weight matrices, the hidden bias, the output weight column
  and the output bias are whole.  Row `5000 t + p` of the one-column result depends only on that row of the three
  row-tiled operands, and the 20 tiles cover every row, so the result array is the row-by-row function `rows` below.
-/
import proofs.«107072_j6554120093875_2_alg».proof.Proof.Gen.KernelIdeal.Frame
import proofs.«107072_j6554120093875_2_alg».proof.Proof.Bodies
import Idealize.ShloMosaic.Lib.Pipeline.Value
import Idealize.ShloMosaic.Lib.ValueIdx

set_option maxRecDepth 16384

noncomputable section

open scoped BigOperators

namespace Cert.KernelIdeal.Layer2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- Entry (P, u) of the result: the hidden features of node `P` — the clamp at zero of the neighbour part, the root
    part and the bias — contracted with the output weight column, plus the output bias. -/
def rows (A : S100000x64.Idx → Elt Ideal .f32) (H : S100000x64.Idx → Elt Ideal .bf16) (I : S100000x1.Idx → Elt Ideal .f32)
    (WL WR : S64x64.Idx → Elt Ideal .f32) (B : S64.Idx → Elt Ideal .f32) (WO : S64x1.Idx → Elt Ideal .f32)
    (BO : S1.Idx → Elt Ideal .f32) : S100000x1.Idx → Elt Ideal .f32 :=
  fun i => (∑ j : Fin 64,
      max ((∑ k : Fin 64, ((A (ix2 (i 0 : Fin 100000) k) : EReal) * (I (ix2 (i 0 : Fin 100000) (0 : Fin 1)) : EReal)) * (WL (ix2 k j) : EReal))
          + (∑ k : Fin 64, (H (ix2 (i 0 : Fin 100000) k) : EReal) * (WR (ix2 k j) : EReal)) + (B (ix1 j) : EReal)) 0
        * (WO (ix2 j (i 1 : Fin 1)) : EReal))
    + (BO (ix1 (i 1 : Fin 1)) : EReal)

/-- The block index of every window at every tile: the row-tiled windows and the output sit at tile `t`, the whole
    operands at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- Row `p` of tile `t` is row `5000 t + p` of the array. -/
def row (t : Fin cfg1.N) (p : Fin 5000) : Fin 100000 :=
  ⟨t.val * 5000 + p.val, by have h1 : t.val < 20 := t.isLt; have h2 := p.isLt; omega⟩

theorem blk_0 (c : Dev nD) (t : Fin cfg1.N) (p : Fin 5000) (k : Fin 64) :
    iblk1 V c 0 t (ix2 p k) = V c main_v36 (ix2 (row t p) k) := by
  show V c main_v36 (((cfg1.win 0).blk t).view.emb (ix2 p k)) = _
  refine congrArg (V c main_v36) (funext fun a => Fin.ext ?_)
  obtain ⟨e00, e01, e10, e11, e20, e21, e30, e31, e40, e50, e51, e60, e61, e70, e80, e81⟩ := idx_facts t
  match a with
  | ⟨0, _⟩ => show win1_0.index t (0 : Fin 2) * 5000 + 1 * p.val = t.val * 5000 + p.val; omega
  | ⟨1, _⟩ => show win1_0.index t (1 : Fin 2) * 64 + 1 * k.val = k.val; omega

theorem blk_1 (c : Dev nD) (t : Fin cfg1.N) (p : Fin 5000) (k : Fin 64) :
    iblk1 V c 1 t (ix2 p k) = V c main_v25 (ix2 (row t p) k) := by
  show V c main_v25 (((cfg1.win 1).blk t).view.emb (ix2 p k)) = _
  refine congrArg (V c main_v25) (funext fun a => Fin.ext ?_)
  obtain ⟨e00, e01, e10, e11, e20, e21, e30, e31, e40, e50, e51, e60, e61, e70, e80, e81⟩ := idx_facts t
  match a with
  | ⟨0, _⟩ => show win1_1.index t (0 : Fin 2) * 5000 + 1 * p.val = t.val * 5000 + p.val; omega
  | ⟨1, _⟩ => show win1_1.index t (1 : Fin 2) * 64 + 1 * k.val = k.val; omega

theorem blk_2 (c : Dev nD) (t : Fin cfg1.N) (p : Fin 5000) (u : Fin 1) :
    iblk1 V c 2 t (ix2 p u) = V c main_v12 (ix2 (row t p) u) := by
  show V c main_v12 (((cfg1.win 2).blk t).view.emb (ix2 p u)) = _
  refine congrArg (V c main_v12) (funext fun a => Fin.ext ?_)
  obtain ⟨e00, e01, e10, e11, e20, e21, e30, e31, e40, e50, e51, e60, e61, e70, e80, e81⟩ := idx_facts t
  match a with
  | ⟨0, _⟩ => show win1_2.index t (0 : Fin 2) * 5000 + 1 * p.val = t.val * 5000 + p.val; omega
  | ⟨1, _⟩ => show win1_2.index t (1 : Fin 2) * 1 + 1 * u.val = u.val; omega

theorem blk_3 (c : Dev nD) (t : Fin cfg1.N) (k : Fin 64) (q : Fin 64) :
    iblk1 V c 3 t (ix2 k q) = V c main_v37 (ix2 k q) := by
  show V c main_v37 (((cfg1.win 3).blk t).view.emb (ix2 k q)) = _
  refine congrArg (V c main_v37) (funext fun a => Fin.ext ?_)
  obtain ⟨e00, e01, e10, e11, e20, e21, e30, e31, e40, e50, e51, e60, e61, e70, e80, e81⟩ := idx_facts t
  match a with
  | ⟨0, _⟩ => show win1_3.index t (0 : Fin 2) * 64 + 1 * k.val = k.val; omega
  | ⟨1, _⟩ => show win1_3.index t (1 : Fin 2) * 64 + 1 * q.val = q.val; omega

theorem blk_4 (c : Dev nD) (t : Fin cfg1.N) (q : Fin 64) :
    iblk1 V c 4 t (ix1 q) = V c main_arg6 (ix1 q) := by
  show V c main_arg6 (((cfg1.win 4).blk t).view.emb (ix1 q)) = _
  refine congrArg (V c main_arg6) (funext fun a => Fin.ext ?_)
  obtain ⟨e00, e01, e10, e11, e20, e21, e30, e31, e40, e50, e51, e60, e61, e70, e80, e81⟩ := idx_facts t
  match a with
  | ⟨0, _⟩ => show win1_4.index t (0 : Fin 1) * 64 + 1 * q.val = q.val; omega

theorem blk_5 (c : Dev nD) (t : Fin cfg1.N) (k : Fin 64) (q : Fin 64) :
    iblk1 V c 5 t (ix2 k q) = V c main_v38 (ix2 k q) := by
  show V c main_v38 (((cfg1.win 5).blk t).view.emb (ix2 k q)) = _
  refine congrArg (V c main_v38) (funext fun a => Fin.ext ?_)
  obtain ⟨e00, e01, e10, e11, e20, e21, e30, e31, e40, e50, e51, e60, e61, e70, e80, e81⟩ := idx_facts t
  match a with
  | ⟨0, _⟩ => show win1_5.index t (0 : Fin 2) * 64 + 1 * k.val = k.val; omega
  | ⟨1, _⟩ => show win1_5.index t (1 : Fin 2) * 64 + 1 * q.val = q.val; omega

theorem blk_6 (c : Dev nD) (t : Fin cfg1.N) (k : Fin 64) (q : Fin 1) :
    iblk1 V c 6 t (ix2 k q) = V c main_v39 (ix2 k q) := by
  show V c main_v39 (((cfg1.win 6).blk t).view.emb (ix2 k q)) = _
  refine congrArg (V c main_v39) (funext fun a => Fin.ext ?_)
  obtain ⟨e00, e01, e10, e11, e20, e21, e30, e31, e40, e50, e51, e60, e61, e70, e80, e81⟩ := idx_facts t
  match a with
  | ⟨0, _⟩ => show win1_6.index t (0 : Fin 2) * 64 + 1 * k.val = k.val; omega
  | ⟨1, _⟩ => show win1_6.index t (1 : Fin 2) * 1 + 1 * q.val = q.val; omega

theorem blk_7 (c : Dev nD) (t : Fin cfg1.N) (q : Fin 1) :
    iblk1 V c 7 t (ix1 q) = V c main_arg9 (ix1 q) := by
  show V c main_arg9 (((cfg1.win 7).blk t).view.emb (ix1 q)) = _
  refine congrArg (V c main_arg9) (funext fun a => Fin.ext ?_)
  obtain ⟨e00, e01, e10, e11, e20, e21, e30, e31, e40, e50, e51, e60, e61, e70, e80, e81⟩ := idx_facts t
  match a with
  | ⟨0, _⟩ => show win1_7.index t (0 : Fin 1) * 1 + 1 * q.val = q.val; omega

/-- Entry (p, u) of tile `t`'s output block is entry (5000 t + p, u) of the result array. -/
theorem emb_out (t : Fin cfg1.N) (p : Fin 5000) (u : Fin 1) :
    ((cfg1.win 8).blk t).view.emb (ix2 p u) = ix2 (row t p) u := by
  funext a
  apply Fin.ext
  obtain ⟨e00, e01, e10, e11, e20, e21, e30, e31, e40, e50, e51, e60, e61, e70, e80, e81⟩ := idx_facts t
  match a with
  | ⟨0, _⟩ => show win1_8.index t (0 : Fin 2) * 5000 + 1 * p.val = t.val * 5000 + p.val; omega
  | ⟨1, _⟩ => show win1_8.index t (1 : Fin 2) * 1 + 1 * u.val = u.val; omega

/-- What tile `t` writes back is block `t` of `rows` of the arrays as the pipeline finds them. -/
theorem flushed_eq (c : Dev nD) (t : Fin cfg1.N) :
    (dat1 V c).flushed 8 t = ((cfg1.win 8).blk t).view.read (Elt Ideal)
      (rows (V c main_v36) (V c main_v25) (V c main_v12) (V c main_v37) (V c main_v38) (V c main_arg6) (V c main_v39)
        (V c main_arg9)) := by
  show (cfg1.win 8).cut (grid1.coords t) ((dat1 V c).after 8 t) = _
  rw [after1_8]
  unfold out1_8
  rw [View.canon_unit_zero hz2]
  simp only [View.ld_unit_zero (S := S5000x1) hz2, View.ld_unit_zero (S := S5000x64) hz2,
    View.ld_unit_zero (S := S64x64) hz2, View.ld_unit_zero (S := S64) hz1, View.ld_unit_zero (S := S64x1) hz2,
    View.ld_unit_zero (S := S1) hz1]
  funext j
  obtain ⟨p, u, rfl⟩ : ∃ (p : Fin 5000) (u : Fin 1), j = ix2 p u := ⟨j 0, j 1, eq_ix2 j⟩
  show k1_pay1 (iblk1 V c 2 t) (iblk1 V c 0 t) (iblk1 V c 1 t) (iblk1 V c 3 t) (iblk1 V c 5 t) (iblk1 V c 4 t)
      (iblk1 V c 6 t) (iblk1 V c 7 t) (ix2 p u)
    = rows (V c main_v36) (V c main_v25) (V c main_v12) (V c main_v37) (V c main_v38) (V c main_arg6) (V c main_v39)
        (V c main_arg9) (((cfg1.win 8).blk t).view.emb (ix2 p u))
  rw [emb_out]
  refine (Bodies.layer2_entry _ _ _ _ _ _ _ _ p u).trans ?_
  simp only [blk_0, blk_1, blk_2, blk_3, blk_4, blk_5, blk_6, blk_7]
  rfl

/-- An index of the result array is in tile `t`'s block iff each coordinate is in the block's range. -/
theorem mem_blk (t : Fin cfg1.N) (i : S100000x1.Idx) :
    i ∈ ((cfg1.win 8).blk t).view.set ↔ ∀ a : Fin 2, win1_8.index t a * S5000x1.size a ≤ (i a).val
      ∧ (i a).val < win1_8.index t a * S5000x1.size a + S5000x1.size a := by
  show i ∈ ((View.whole main_v40).slice (win1_8.rect t)).set ↔ _
  rw [View.set_slice_whole, Rect.mem_set_unit]
  exact Iff.rfl

/-- Every block of rows is some tile's. -/
theorem idx_onto : ∀ q0 : Fin 20, ∃ t : Fin cfg1.N, win1_8.index t = ![q0.val, 0] :=
  (by decide +kernel : ∀ q0 : Fin 20, ∃ t : Fin grid1.N, win1_8.index t = ![q0.val, 0])

/-- The tiles cover the result array: row `r` is in tile `r / 5000`. -/
theorem cover (i : S100000x1.Idx) :
    ∃ t : Fin cfg1.N, (cfg1.win 8).flush t = true ∧ i ∈ ((cfg1.win 8).blk t).view.set := by
  have hi0 : (i 0).val < 100000 := (i 0).isLt
  have hi1 : (i 1).val < 1 := (i 1).isLt
  obtain ⟨t, ht⟩ := idx_onto ⟨(i 0).val / 5000, by omega⟩
  have q0 : win1_8.index t (0 : Fin 2) = (i 0).val / 5000 := congrFun ht 0
  have q1 : win1_8.index t (1 : Fin 2) = 0 := congrFun ht 1
  refine ⟨t, flush1_8 t, ?_⟩
  rw [mem_blk]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 1 ≤ (i 1).val ∧ (i 1).val < win1_8.index t (1 : Fin 2) * 1 + 1; omega

/-- The result array after the pipeline. -/
theorem final (c : Dev nD) :
    (dat1 V c).arrAt 8 cfg1.N
      = rows (V c main_v36) (V c main_v25) (V c main_v12) (V c main_v37) (V c main_v38) (V c main_arg6) (V c main_v39)
          (V c main_arg9) :=
  (dat1 V c).arrAt_eq_of_cover 8 _ (fun t _ => flushed_eq V c t) cover

end Cert.KernelIdeal.Layer2

end
-- ==== Proof.LibMeanAggregate.lean ====
/-
  The arithmetic that joins the two ways of writing one graph-convolution layer, over the extended reals.

  A node's aggregated neighbour features `a` are averaged by the node's in-degree `c`, clamped below at one so that an
  isolated node divides by one.  One program divides each aggregated feature by `max c 1`; the other multiplies it by
  the reciprocal `1 / max c 1` computed once.  Because `max c 1` is at least one it is not zero, and dividing by a
  nonzero extended real IS multiplying by its inverse, so the two agree for every extended real `a`, finite or not.
  The two programs also add the three terms of a layer (neighbour part, bias, root part) in different orders;
  addition of extended reals is commutative and associative, so that changes nothing either.
-/
import Idealize.ShloMosaic.PureOps.Ideal
import Idealize.ShloMosaic.PureOps.Ideal.Laws

noncomputable section

open scoped BigOperators
open Idealize.ShloMosaic

namespace SageLaw

/-- The single-precision pattern of one denotes one. -/
theorem one_f32 : Ideal.ofBits .f32 0x3F800000#32 = 1 := by
  simp [Ideal.ofBits, Ideal.ieee, -EReal.coe_mul]; norm_num

/-- One divided by a nonzero number is its inverse. -/
theorem one_div {m : EReal} (hm : m ≠ 0) : Ideal.div 1 m = m⁻¹ := by
  rw [Ideal.div, if_neg hm, one_mul]

/-- Multiplying by the reciprocal of a nonzero number is dividing by it. -/
theorem mul_one_div {m : EReal} (hm : m ≠ 0) (a : EReal) : a * Ideal.div 1 m = Ideal.div a m := by
  rw [one_div hm, Ideal.div, if_neg hm]

/-- A degree clamped below at one is not zero. -/
theorem clamp_ne_zero (c : EReal) : max c 1 ≠ 0 :=
  ne_of_gt (lt_of_lt_of_le zero_lt_one (le_max_right c 1))

/-- One entry of a layer before the clamp at zero: neighbour part with the reciprocal folded in, plus root part,
    plus bias — against neighbour part divided entry by entry, plus bias, plus root part. -/
theorem layer_entry {K : ℕ} (a x wl wr : Fin K → EReal) (c b : EReal) :
    max ((∑ k, (a k * Ideal.div 1 (max c 1)) * wl k) + (∑ k, x k * wr k) + b) 0
      = max (((∑ k, Ideal.div (a k) (max c 1) * wl k) + b) + ∑ k, x k * wr k) 0 := by
  simp only [mul_one_div (clamp_ne_zero c)]
  rw [add_right_comm]

end SageLaw

end
-- ==== Proof.LayerLaws.lean ====
/-
  Each layer, written the tiled program's way, is the reference's layer.

  Both programs compute the same neighbour aggregation (gather the source rows, add them into the destination rows),
  the same in-degree count, and the same transposed weight matrices; those are kept here as the reference's own
  stage functions and never opened.  What differs is only how a layer is assembled from them: the tiled program
  multiplies the aggregated features by the reciprocal `1 / max (degree) 1` and adds neighbour part, root part and
  bias in that order; the reference divides by `max (degree) 1` and adds neighbour part, bias and root part.  Entry by
  entry the two are equal over the extended reals (`SageLaw.layer_entry`).  The reference counts the in-degree once
  per layer; the two counts are the same sum, so one clamped reciprocal serves both layers.
-/
import proofs.«107072_j6554120093875_2_alg».proof.Proof.Gen.ReferenceIdeal.Read
import proofs.«107072_j6554120093875_2_alg».proof.Proof.Layer1Array
import proofs.«107072_j6554120093875_2_alg».proof.Proof.Layer2Array
import proofs.«107072_j6554120093875_2_alg».proof.Proof.LibMeanAggregate
import proofs.«107072_j6554120093875_2_alg».proof.Proof.LibColumnLayout

set_option maxRecDepth 16384

noncomputable section

open scoped BigOperators

namespace Cert.KernelIdeal.LayerLaws

open Idealize.ShloMosaic Idealize.ShloMosaic.TcCoe Idealize.ShloMosaic.ValueIdx
open Cert.KernelIdeal Cert.KernelIdeal.Gen
open Cert.ReferenceIdeal.Read

section Generic

variable {F : FTy → Type} [FloatOps F]

/-- The reciprocal clamped in-degree, per node: one over the larger of the in-degree and one. -/
def Recip (x1 : (⟨Cert.ReferenceIdeal.S2x3200000, .i32⟩ : BufTy).Contents (Elt F)) : FVec F S100000 .f32 :=
  Host.divf (val_main_v18 (F := F)) (val_main_v19 (F := F) x1)

theorem Recip_at (x1 : (⟨Cert.ReferenceIdeal.S2x3200000, .i32⟩ : BufTy).Contents (Elt F)) (i : S100000.Idx) :
    Recip x1 i = FloatOps.hostDivf (val_main_v18 (F := F) i) (val_main_v19 (F := F) x1 i) := rfl

end Generic

variable (x0 : (⟨Cert.ReferenceIdeal.S100000x11, .f32⟩ : BufTy).Contents (Elt Ideal))
  (x1 : (⟨Cert.ReferenceIdeal.S2x3200000, .i32⟩ : BufTy).Contents (Elt Ideal))
  (x2 x4 : (⟨Cert.ReferenceIdeal.S64x11, .f32⟩ : BufTy).Contents (Elt Ideal))
  (x3 x6 : (⟨Cert.ReferenceIdeal.S64, .f32⟩ : BufTy).Contents (Elt Ideal))
  (x5 x7 : (⟨Cert.ReferenceIdeal.S64x64, .f32⟩ : BufTy).Contents (Elt Ideal))
  (x8 : (⟨Cert.ReferenceIdeal.S1x64, .f32⟩ : BufTy).Contents (Elt Ideal))
  (x9 : (⟨Cert.ReferenceIdeal.S1, .f32⟩ : BufTy).Contents (Elt Ideal))

theorem Recip_apply (P : Fin 100000) :
    Recip x1 (ix1 P) = Ideal.div 1 (max (val_main_v17 (F := Ideal) x1 (ix1 P)) 1) := by
  rw [Recip_at, val_main_v19_apply, val_main_v18_apply, val_main_cst_3_apply]
  simp only [Ideal.hostDivf_def, Ideal.maximumf_def, Ideal.ofBits_def, SageLaw.one_f32]

/-- The same as a column, one entry per node. -/
def Inv : S100000x1.Idx → Elt Ideal .f32 :=
  shapeCast S100000x1 (Recip x1) shapeCasts_S100000_S100000x1

theorem Inv_apply (P : Fin 100000) (u : Fin 1) :
    Inv x1 (ix2 P u) = Ideal.div 1 (max (val_main_v17 (F := Ideal) x1 (ix1 P)) 1) := by
  unfold Inv
  exact (Cert.ColumnLayout.shapeCast_a_a1_apply (a := 100000) (Recip x1) shapeCasts_S100000_S100000x1 P u).trans
    (Recip_apply x1 P)

/-! ## The first layer -/

theorem l24 (P : Fin 100000) (q : Fin 64) (k : Fin 11) : lidx_main_v24 (ix2 P q) k = ix2 P k := funext fun a => by
    match a with
    | ⟨0, _⟩ => rfl
    | ⟨1, _⟩ => rfl
theorem r24 (P : Fin 100000) (q : Fin 64) (k : Fin 11) : ridx_main_v24 (ix2 P q) k = ix2 k q := funext fun a => by
    match a with
    | ⟨0, _⟩ => rfl
    | ⟨1, _⟩ => rfl
theorem l29 (P : Fin 100000) (q : Fin 64) (k : Fin 11) : lidx_main_v29 (ix2 P q) k = ix2 P k := funext fun a => by
    match a with
    | ⟨0, _⟩ => rfl
    | ⟨1, _⟩ => rfl
theorem r29 (P : Fin 100000) (q : Fin 64) (k : Fin 11) : ridx_main_v29 (ix2 P q) k = ix2 k q := funext fun a => by
    match a with
    | ⟨0, _⟩ => rfl
    | ⟨1, _⟩ => rfl
theorem d21 (P : Fin 100000) (k : Fin 11) : idx_main_v20 (idx_main_v21 (ix2 P k)) = ix1 P := funext fun a => by
    match a with
    | ⟨0, _⟩ => rfl
theorem b26 (P : Fin 100000) (q : Fin 64) : idx_main_v25 (idx_main_v26 (ix2 P q)) = ix1 q := funext fun a => by
    match a with
    | ⟨0, _⟩ => rfl

/-- The clamped in-degree the reference divides the first layer's aggregate by. -/
theorem deg1 (P : Fin 100000) (k : Fin 11) :
    val_main_v21 (F := Ideal) x1 (ix2 P k) = max (val_main_v17 (F := Ideal) x1 (ix1 P)) 1 := by
  rw [val_main_v21_apply, val_main_v20_apply, d21, val_main_v19_apply, val_main_v18_apply, val_main_cst_3_apply]
  exact congrArg (max _) SageLaw.one_f32

theorem nb_sum1 (P : Fin 100000) (q : Fin 64) :
    (∑ k : Fin 11, val_main_v22 (F := Ideal) x0 x1 (lidx_main_v24 (ix2 P q) k) * val_main_v23 (F := Ideal) x2 (ridx_main_v24 (ix2 P q) k))
      = ∑ k : Fin 11, Ideal.div (val_main_v13 (F := Ideal) x0 x1 (ix2 P k)) (max (val_main_v17 (F := Ideal) x1 (ix1 P)) 1)
          * val_main_v23 (F := Ideal) x2 (ix2 k q) :=
  Finset.sum_congr rfl fun k _ => by
    rw [l24, r24, val_main_v22_apply, deg1]
    rfl

theorem root_sum1 (P : Fin 100000) (q : Fin 64) :
    (∑ k : Fin 11, x0 (lidx_main_v29 (ix2 P q) k) * val_main_v28 (F := Ideal) x4 (ridx_main_v29 (ix2 P q) k))
      = ∑ k : Fin 11, x0 (ix2 P k) * val_main_v28 (F := Ideal) x4 (ix2 k q) :=
  Finset.sum_congr rfl fun k _ => by rw [l29, r29]

/-- The reference's first layer at node `P` and hidden feature `q`. -/
theorem ref1 (P : Fin 100000) (q : Fin 64) : val_main_v31 (F := Ideal) x0 x1 x2 x3 x4 (ix2 P q)
    = max (((∑ k : Fin 11, Ideal.div (val_main_v13 (F := Ideal) x0 x1 (ix2 P k)) (max (val_main_v17 (F := Ideal) x1 (ix1 P)) 1)
          * val_main_v23 (F := Ideal) x2 (ix2 k q)) + x3 (ix1 q))
        + ∑ k : Fin 11, x0 (ix2 P k) * val_main_v28 (F := Ideal) x4 (ix2 k q)) 0 := by
  rw [val_main_v31_apply, val_main_v30_apply, val_main_v27_apply, val_main_v24_apply, val_main_v29_apply,
    val_main_v26_apply, val_main_v25_apply, val_main_call0_v0_apply, val_main_call0_cst_apply, b26, nb_sum1, root_sum1]
  exact congrArg (max _) Ideal.ofBits_zero_f32

/-- The first pipeline's row-by-row function of the reference's stages is the reference's first layer. -/
theorem layer1_eq :
    Layer1.rows (val_main_v13 (F := Ideal) x0 x1) x0 (Inv x1) (val_main_v23 (F := Ideal) x2) (val_main_v28 (F := Ideal) x4) x3
      = val_main_v31 (F := Ideal) x0 x1 x2 x3 x4 := by
  funext i
  obtain ⟨P, q, rfl⟩ : ∃ (P : Fin 100000) (q : Fin 64), i = ix2 P q := ⟨i 0, i 1, eq_ix2 i⟩
  rw [ref1]
  show max ((∑ k : Fin 11, ((val_main_v13 (F := Ideal) x0 x1 (ix2 P k) : EReal) * (Inv x1 (ix2 P (0 : Fin 1)) : EReal))
        * (val_main_v23 (F := Ideal) x2 (ix2 k q) : EReal))
      + (∑ k : Fin 11, (x0 (ix2 P k) : EReal) * (val_main_v28 (F := Ideal) x4 (ix2 k q) : EReal)) + (x3 (ix1 q) : EReal)) 0 = _
  rw [Inv_apply]
  exact SageLaw.layer_entry (fun k => val_main_v13 (F := Ideal) x0 x1 (ix2 P k)) (fun k => x0 (ix2 P k))
    (fun k => val_main_v23 (F := Ideal) x2 (ix2 k q)) (fun k => val_main_v28 (F := Ideal) x4 (ix2 k q))
    (val_main_v17 (F := Ideal) x1 (ix1 P)) (x3 (ix1 q))

/-! ## The second layer and the output layer -/

theorem l52 (P : Fin 100000) (j : Fin 64) (k : Fin 64) : lidx_main_v52 (ix2 P j) k = ix2 P k := funext fun a => by
    match a with
    | ⟨0, _⟩ => rfl
    | ⟨1, _⟩ => rfl
theorem r52 (P : Fin 100000) (j : Fin 64) (k : Fin 64) : ridx_main_v52 (ix2 P j) k = ix2 k j := funext fun a => by
    match a with
    | ⟨0, _⟩ => rfl
    | ⟨1, _⟩ => rfl
theorem l57 (P : Fin 100000) (j : Fin 64) (k : Fin 64) : lidx_main_v57 (ix2 P j) k = ix2 P k := funext fun a => by
    match a with
    | ⟨0, _⟩ => rfl
    | ⟨1, _⟩ => rfl
theorem r57 (P : Fin 100000) (j : Fin 64) (k : Fin 64) : ridx_main_v57 (ix2 P j) k = ix2 k j := funext fun a => by
    match a with
    | ⟨0, _⟩ => rfl
    | ⟨1, _⟩ => rfl
theorem d49 (P : Fin 100000) (k : Fin 64) : idx_main_v48 (idx_main_v49 (ix2 P k)) = ix1 P := funext fun a => by
    match a with
    | ⟨0, _⟩ => rfl
theorem b54 (P : Fin 100000) (j : Fin 64) : idx_main_v53 (idx_main_v54 (ix2 P j)) = ix1 j := funext fun a => by
    match a with
    | ⟨0, _⟩ => rfl
theorem l61 (P : Fin 100000) (u : Fin 1) (j : Fin 64) : lidx_main_v61 (ix2 P u) j = ix2 P j := funext fun a => by
    match a with
    | ⟨0, _⟩ => rfl
    | ⟨1, _⟩ => rfl
theorem r61 (P : Fin 100000) (u : Fin 1) (j : Fin 64) : ridx_main_v61 (ix2 P u) j = ix2 j u := funext fun a => by
    match a with
    | ⟨0, _⟩ => rfl
    | ⟨1, _⟩ => rfl

theorem b63 (P : Fin 100000) (u : Fin 1) : idx_main_v62 (idx_main_v63 (ix2 P u)) = ix1 u := funext fun a => by
    match a with
    | ⟨0, _⟩ => exact Fin.ext (by have h := u.isLt; show 0 = u.val; omega)

/-- The reference counts the in-degree a second time for the second layer: the same sum. -/
theorem count_again : val_main_v45 (F := Ideal) x1 = val_main_v17 (F := Ideal) x1 := rfl

/-- The clamped in-degree the reference divides the second layer's aggregate by. -/
theorem deg2 (P : Fin 100000) (k : Fin 64) :
    val_main_v49 (F := Ideal) x1 (ix2 P k) = max (val_main_v17 (F := Ideal) x1 (ix1 P)) 1 := by
  rw [val_main_v49_apply, val_main_v48_apply, d49, val_main_v47_apply, val_main_v46_apply, val_main_cst_9_apply, count_again]
  exact congrArg (max _) SageLaw.one_f32

theorem nb_sum2 (P : Fin 100000) (j : Fin 64) :
    (∑ k : Fin 64, val_main_v50 (F := Ideal) x0 x1 x2 x3 x4 (lidx_main_v52 (ix2 P j) k) * val_main_v51 (F := Ideal) x5 (ridx_main_v52 (ix2 P j) k))
      = ∑ k : Fin 64, Ideal.div (val_main_v41 (F := Ideal) x0 x1 x2 x3 x4 (ix2 P k)) (max (val_main_v17 (F := Ideal) x1 (ix1 P)) 1)
          * val_main_v51 (F := Ideal) x5 (ix2 k j) :=
  Finset.sum_congr rfl fun k _ => by
    rw [l52, r52, val_main_v50_apply, deg2]
    rfl

theorem root_sum2 (P : Fin 100000) (j : Fin 64) :
    (∑ k : Fin 64, val_main_v31 (F := Ideal) x0 x1 x2 x3 x4 (lidx_main_v57 (ix2 P j) k) * val_main_v56 (F := Ideal) x7 (ridx_main_v57 (ix2 P j) k))
      = ∑ k : Fin 64, val_main_v31 (F := Ideal) x0 x1 x2 x3 x4 (ix2 P k) * val_main_v56 (F := Ideal) x7 (ix2 k j) :=
  Finset.sum_congr rfl fun k _ => by rw [l57, r57]

/-- The reference's second layer at node `P` and hidden feature `j`. -/
theorem hid2 (P : Fin 100000) (j : Fin 64) : val_main_v59 (F := Ideal) x0 x1 x2 x3 x4 x5 x6 x7 (ix2 P j)
    = max (((∑ k : Fin 64, Ideal.div (val_main_v41 (F := Ideal) x0 x1 x2 x3 x4 (ix2 P k)) (max (val_main_v17 (F := Ideal) x1 (ix1 P)) 1)
          * val_main_v51 (F := Ideal) x5 (ix2 k j)) + x6 (ix1 j))
        + ∑ k : Fin 64, val_main_v31 (F := Ideal) x0 x1 x2 x3 x4 (ix2 P k) * val_main_v56 (F := Ideal) x7 (ix2 k j)) 0 := by
  rw [val_main_v59_apply, val_main_v58_apply, val_main_v55_apply, val_main_v52_apply, val_main_v57_apply,
    val_main_v54_apply, val_main_v53_apply, val_main_call1_v0_apply, val_main_call1_cst_apply, b54, nb_sum2, root_sum2]
  exact congrArg (max _) Ideal.ofBits_zero_f32

/-- The reference's result at node `P`. -/
theorem ref2 (P : Fin 100000) (u : Fin 1) : val_main_v64 (F := Ideal) x0 x1 x2 x3 x4 x5 x6 x7 x8 x9 (ix2 P u)
    = (∑ j : Fin 64, max (((∑ k : Fin 64, Ideal.div (val_main_v41 (F := Ideal) x0 x1 x2 x3 x4 (ix2 P k)) (max (val_main_v17 (F := Ideal) x1 (ix1 P)) 1)
            * val_main_v51 (F := Ideal) x5 (ix2 k j)) + x6 (ix1 j))
          + ∑ k : Fin 64, val_main_v31 (F := Ideal) x0 x1 x2 x3 x4 (ix2 P k) * val_main_v56 (F := Ideal) x7 (ix2 k j)) 0
        * val_main_v60 (F := Ideal) x8 (ix2 j u)) + x9 (ix1 u) := by
  rw [val_main_v64_apply, val_main_v61_apply, val_main_v63_apply, val_main_v62_apply, b63]
  refine congrArg (· + x9 (ix1 u)) (Finset.sum_congr rfl fun j _ => ?_)
  rw [l61, r61, hid2]

/-- The second pipeline's row-by-row function of the reference's stages is the reference's result. -/
theorem layer2_eq :
    Layer2.rows (val_main_v41 (F := Ideal) x0 x1 x2 x3 x4) (val_main_v31 (F := Ideal) x0 x1 x2 x3 x4) (Inv x1)
        (val_main_v51 (F := Ideal) x5) (val_main_v56 (F := Ideal) x7) x6 (val_main_v60 (F := Ideal) x8) x9
      = val_main_v64 (F := Ideal) x0 x1 x2 x3 x4 x5 x6 x7 x8 x9 := by
  funext i
  obtain ⟨P, u, rfl⟩ : ∃ (P : Fin 100000) (u : Fin 1), i = ix2 P u := ⟨i 0, i 1, eq_ix2 i⟩
  rw [ref2]
  show (∑ j : Fin 64,
      max ((∑ k : Fin 64, ((val_main_v41 (F := Ideal) x0 x1 x2 x3 x4 (ix2 P k) : EReal) * (Inv x1 (ix2 P (0 : Fin 1)) : EReal))
            * (val_main_v51 (F := Ideal) x5 (ix2 k j) : EReal))
          + (∑ k : Fin 64, (val_main_v31 (F := Ideal) x0 x1 x2 x3 x4 (ix2 P k) : EReal) * (val_main_v56 (F := Ideal) x7 (ix2 k j) : EReal))
          + (x6 (ix1 j) : EReal)) 0
        * (val_main_v60 (F := Ideal) x8 (ix2 j u) : EReal))
    + (x9 (ix1 u) : EReal) = _
  rw [Inv_apply]
  refine congrArg (· + x9 (ix1 u)) (Finset.sum_congr rfl fun j _ => congrArg (· * val_main_v60 (F := Ideal) x8 (ix2 j u)) ?_)
  exact SageLaw.layer_entry (fun k => val_main_v41 (F := Ideal) x0 x1 x2 x3 x4 (ix2 P k)) (fun k => val_main_v31 (F := Ideal) x0 x1 x2 x3 x4 (ix2 P k))
    (fun k => val_main_v51 (F := Ideal) x5 (ix2 k j)) (fun k => val_main_v56 (F := Ideal) x7 (ix2 k j))
    (val_main_v17 (F := Ideal) x1 (ix1 P)) (x6 (ix1 j))

end Cert.KernelIdeal.LayerLaws

end
-- ==== Proof.Reads.lean ====
/-
  What each array holds when a pipeline is entered, in terms of the reference's stage functions.

  Before the first pipeline the host computes, from the edge list, the in-degree of every node and its clamped
  reciprocal, the sum over incoming edges of the source nodes' features, and the two transposed weight matrices.
  Between the pipelines it sums the first layer's output over incoming edges in the same way and transposes the
  remaining weight matrices.  Those are, operation for operation, the reference's own stages, so each array is the
  corresponding stage function of the arguments; the first layer's output array is the first pipeline's row-by-row
  function, which `LayerLaws.layer1_eq` identifies with the reference's first layer.
-/
import proofs.«107072_j6554120093875_2_alg».proof.Proof.Gen.KernelIdeal.Frame
import proofs.«107072_j6554120093875_2_alg».proof.Proof.Gen.ReferenceIdeal.Read
import proofs.«107072_j6554120093875_2_alg».proof.Proof.Layer1Array
import proofs.«107072_j6554120093875_2_alg».proof.Proof.Layer2Array
import proofs.«107072_j6554120093875_2_alg».proof.Proof.LayerLaws
import Idealize.ShloMosaic.Lib.StableHlo.Run

set_option maxRecDepth 16384

noncomputable section

namespace Cert.KernelIdeal.Reads

open Idealize.ShloMosaic Idealize.ShloMosaic.TcCoe Idealize.ShloMosaic.ValueIdx Idealize.SL.Sem Idealize.ShloMosaic.StableHlo
open Cert.KernelIdeal Cert.KernelIdeal.Gen Cert.KernelIdeal.LayerLaws
open Cert.ReferenceIdeal.Read

variable (m : (ℓ : Loc nD τ sig) → Buf (Elt Ideal) ℓ) (ρ : Dev nD → PrngReg) (c : Dev nD)

/-! ## At the first pipeline's entry -/

theorem e0_agg : V1 m ρ c main_v22 = val_main_v13 (F := Ideal) (m ((c : Thread nD τ).loc main_arg0)) (m ((c : Thread nD τ).loc main_arg1)) := by
  dsimp only [V1, W1, hostOps0]; after_results_simp <;> rfl
theorem e0_x : V1 m ρ c main_arg0 = (m ((c : Thread nD τ).loc main_arg0)) := by
  dsimp only [V1, W1, hostOps0]; after_results_simp <;> rfl
theorem e0_inv : V1 m ρ c main_v12 = Inv (m ((c : Thread nD τ).loc main_arg1)) := by
  dsimp only [V1, W1, hostOps0]; after_results_simp <;> rfl
theorem e0_wl : V1 m ρ c main_v23 = val_main_v23 (F := Ideal) (m ((c : Thread nD τ).loc main_arg2)) := by
  dsimp only [V1, W1, hostOps0]; after_results_simp <;> rfl
theorem e0_wr : V1 m ρ c main_v24 = val_main_v28 (F := Ideal) (m ((c : Thread nD τ).loc main_arg4)) := by
  dsimp only [V1, W1, hostOps0]; after_results_simp <;> rfl
theorem e0_b : V1 m ρ c main_arg3 = (m ((c : Thread nD τ).loc main_arg3)) := by
  dsimp only [V1, W1, hostOps0]; after_results_simp <;> rfl

/-! ## After the first pipeline -/

/-- The first layer's output array is the reference's first layer. -/
theorem w2_h1 : W2 m ρ c (Proc.devRef .tc main_v25) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((Layer1.final (V1 m ρ) c).trans (by
    rw [e0_agg, e0_x, e0_inv, e0_wl, e0_wr, e0_b]
    exact layer1_eq _ _ _ _ _))

/-- The edge sources and destinations are untouched by the pipeline. -/
theorem w2_src : W2 m ρ c (Proc.devRef .tc main_v1) = val_main_v1 (F := Ideal) (m ((c : Thread nD τ).loc main_arg1)) :=
  (W2_of_ne m ρ c main_v1 (by decide)).trans (by dsimp only [W1, hostOps0]; after_results_simp <;> rfl)
theorem w2_dst : W2 m ρ c (Proc.devRef .tc main_v3) = val_main_v3 (F := Ideal) (m ((c : Thread nD τ).loc main_arg1)) :=
  (W2_of_ne m ρ c main_v3 (by decide)).trans (by dsimp only [W1, hostOps0]; after_results_simp <;> rfl)

/-- The reciprocal clamped in-degree is read by the pipeline and left as it was. -/
theorem w2_inv : W2 m ρ c (Proc.devRef .tc main_v12) = Inv (m ((c : Thread nD τ).loc main_arg1)) :=
  (W2_arr m ρ c 2).trans (((dat0 (V1 m ρ) c).arrAt_in 2 rfl _).trans ((A_eq0 (V1 m ρ) c 2).trans (e0_inv m ρ c)))

theorem w2_arg5 : W2 m ρ c (Proc.devRef .tc main_arg5) = (m ((c : Thread nD τ).loc main_arg5)) :=
  (W2_of_ne m ρ c main_arg5 (by decide)).trans (by dsimp only [W1, hostOps0]; after_results_simp <;> rfl)
theorem w2_arg6 : W2 m ρ c (Proc.devRef .tc main_arg6) = (m ((c : Thread nD τ).loc main_arg6)) :=
  (W2_of_ne m ρ c main_arg6 (by decide)).trans (by dsimp only [W1, hostOps0]; after_results_simp <;> rfl)
theorem w2_arg7 : W2 m ρ c (Proc.devRef .tc main_arg7) = (m ((c : Thread nD τ).loc main_arg7)) :=
  (W2_of_ne m ρ c main_arg7 (by decide)).trans (by dsimp only [W1, hostOps0]; after_results_simp <;> rfl)
theorem w2_arg8 : W2 m ρ c (Proc.devRef .tc main_arg8) = (m ((c : Thread nD τ).loc main_arg8)) :=
  (W2_of_ne m ρ c main_arg8 (by decide)).trans (by dsimp only [W1, hostOps0]; after_results_simp <;> rfl)
theorem w2_arg9 : W2 m ρ c (Proc.devRef .tc main_arg9) = (m ((c : Thread nD τ).loc main_arg9)) :=
  (W2_of_ne m ρ c main_arg9 (by decide)).trans (by dsimp only [W1, hostOps0]; after_results_simp <;> rfl)

/-! ## At the second pipeline's entry -/

theorem e1_agg : V3 m ρ c main_v36 = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V3, W3, hostOps1]; after_results_simp
  rw [w2_h1, w2_src, w2_dst]; rfl
theorem e1_h : V3 m ρ c main_v25 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [V3, W3, hostOps1]; after_results_simp
  exact w2_h1 m ρ c
theorem e1_inv : V3 m ρ c main_v12 = Inv (m ((c : Thread nD τ).loc main_arg1)) := by
  dsimp only [V3, W3, hostOps1]; after_results_simp
  exact w2_inv m ρ c
theorem e1_wl : V3 m ρ c main_v37 = val_main_v51 (F := Ideal) (m ((c : Thread nD τ).loc main_arg5)) := by
  dsimp only [V3, W3, hostOps1]; after_results_simp
  rw [w2_arg5]; rfl
theorem e1_wr : V3 m ρ c main_v38 = val_main_v56 (F := Ideal) (m ((c : Thread nD τ).loc main_arg7)) := by
  dsimp only [V3, W3, hostOps1]; after_results_simp
  rw [w2_arg7]; rfl
theorem e1_wo : V3 m ρ c main_v39 = val_main_v60 (F := Ideal) (m ((c : Thread nD τ).loc main_arg8)) := by
  dsimp only [V3, W3, hostOps1]; after_results_simp
  rw [w2_arg8]; rfl
theorem e1_b : V3 m ρ c main_arg6 = (m ((c : Thread nD τ).loc main_arg6)) := by
  dsimp only [V3, W3, hostOps1]; after_results_simp
  exact w2_arg6 m ρ c
theorem e1_bo : V3 m ρ c main_arg9 = (m ((c : Thread nD τ).loc main_arg9)) := by
  dsimp only [V3, W3, hostOps1]; after_results_simp
  exact w2_arg9 m ρ c

/-! ## The result -/

/-- The result array after the second pipeline is the reference's result, as a function of the arguments. -/
theorem result_eq : W4 m ρ c (Proc.devRef .tc main_v40) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 8).trans ((Layer2.final (V3 m ρ) c).trans (by
    rw [e1_agg, e1_h, e1_inv, e1_wl, e1_wr, e1_b, e1_wo, e1_bo]
    exact layer2_eq _ _ _ _ _ _ _ _ _ _))

end Cert.KernelIdeal.Reads

end
-- ==== Proof.lean ====
/-
  A two-layer graph convolution with mean aggregation followed by a linear output layer, computed two ways.

  Per layer, a node's new features are `max (mean_nb · Wlᵀ + b + x · Wrᵀ) 0`, where `mean_nb` is the sum of the source
  nodes' features over the node's incoming edges divided by its in-degree (clamped below at one).  The reference
  computes this with whole-array host operations.  The tiled program computes the edge sums and the in-degree on the
  host in the same way, takes the reciprocal of the clamped in-degree once, and runs each layer's dense part in a
  pipeline over 20 tiles of 5000 nodes: a tile multiplies the edge sums by the reciprocal, takes the two matrix
  products, adds the bias and clamps at zero; the second pipeline also contracts the hidden features with the output
  weights and adds the output bias.

  Over the extended reals the two agree for every input: a tile's rows depend only on the same rows of its operands
  and the tiles cover all rows (Layer1Array, Layer2Array); multiplying by the reciprocal of a number that is at least
  one is dividing by it, and the three terms of a layer may be added in any order (LibMeanAggregate, LayerLaws); the host
  stages are the same operations in both programs (Reads).  No finiteness of the inputs is used.  The frames are the
  generated ones; nothing was rewritten when the program was idealized, so that conjunct is trivial.
-/
import proofs.«107072_j6554120093875_2_alg».proof.Defs
import proofs.«107072_j6554120093875_2_alg».proof.Proof.Gen.Kernel
import proofs.«107072_j6554120093875_2_alg».proof.Proof.Gen.Kernel.Skeleton
import proofs.«107072_j6554120093875_2_alg».proof.Proof.Gen.Kernel.Launch
import proofs.«107072_j6554120093875_2_alg».proof.Proof.Gen.Kernel.Points
import proofs.«107072_j6554120093875_2_alg».proof.Proof.Gen.Kernel.Frame
import proofs.«107072_j6554120093875_2_alg».proof.Proof.Gen.KernelIdeal
import proofs.«107072_j6554120093875_2_alg».proof.Proof.Gen.KernelIdeal.Skeleton
import proofs.«107072_j6554120093875_2_alg».proof.Proof.Gen.KernelIdeal.Launch
import proofs.«107072_j6554120093875_2_alg».proof.Proof.Gen.KernelIdeal.Points
import proofs.«107072_j6554120093875_2_alg».proof.Proof.Gen.KernelIdeal.Frame
import proofs.«107072_j6554120093875_2_alg».proof.Proof.Gen.ReferenceIdeal
import proofs.«107072_j6554120093875_2_alg».proof.Proof.Gen.Pre_finite_inputs
import proofs.«107072_j6554120093875_2_alg».proof.Proof.Gen.ReferenceIdeal.Run
import proofs.«107072_j6554120093875_2_alg».proof.Proof.Gen.ReferenceIdeal.Read
import proofs.«107072_j6554120093875_2_alg».proof.Proof.WholeRun
import proofs.«107072_j6554120093875_2_alg».proof.Proof.Reads
import Idealize.ShloMosaic.Adequacy
import Idealize.ShloMosaic.Init

noncomputable section

namespace Cert.Proof

open Idealize.ShloMosaic Idealize.ShloMosaic.TcCoe Idealize.SL.Sem

/-- The reference runs, and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result: the tiled program's result
    array is the reference's result as a function of the arguments (`Reads.result_eq`), and so is the reference's. -/
theorem algebraic : Cert.algebraic_KernelIdeal_ReferenceIdeal := by
  intro m ρ m' ρ' _ hagree
  refine ⟨fun c => Cert.KernelIdeal.Gen.W4 m ρ c (Proc.devRef .tc Cert.KernelIdeal.main_v40),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v64_eq, h0, h1, h2, h3, h4, h5, h6, h7, h8, h9]
  exact (Cert.KernelIdeal.Reads.result_eq m ρ c).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_reference, trivial,
    algebraic⟩

end Cert.Proof

end
